-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S4096 : Shape := ⟨1, ![4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x1024 .f32) (main_arg1 : FVec F S1024x4096 .f32) (main_arg2 : FVec F S4096 .f32) (main_arg3 : FVec F S4096x1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4096x1024 : Shape := ⟨2, ![4096, 1024]⟩
abbrev S1024x4096 : Shape := ⟨2, ![1024, 4096]⟩
abbrev S4096 : Shape := ⟨1, ![4096]⟩
abbrev S1024 : Shape := ⟨1, ![1024]⟩
abbrev S1x4096 : Shape := ⟨2, ![1, 4096]⟩
abbrev S1x1024 : Shape := ⟨2, ![1, 1024]⟩
abbrev S512x1024 : Shape := ⟨2, ![512, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x4096, .f32⟩
  | .hbm, ⟨8, _⟩ => ⟨S1x1024, .f32⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S512x1024 : S1x1024.Broadcasts S512x1024
  inb_S4096x1024_S1024x1024_0_0 : ∀ a, (![0, 0] : Fin 2 → Nat) a + S1024x1024.size a ≤ S4096x1024.size a
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  inb_S4096x1024_S1024x1024_1024_0 : ∀ a, (![1024, 0] : Fin 2 → Nat) a + S1024x1024.size a ≤ S4096x1024.size a
  inb_S1024x4096_S1024x1024_0_2048 : ∀ a, (![0, 2048] : Fin 2 → Nat) a + S1024x1024.size a ≤ S1024x4096.size a
  inb_S1x4096_S1x1024_0_2048 : ∀ a, (![0, 2048] : Fin 2 → Nat) a + S1x1024.size a ≤ S1x4096.size a
  inb_S4096x1024_S1024x1024_2048_0 : ∀ a, (![2048, 0] : Fin 2 → Nat) a + S1024x1024.size a ≤ S4096x1024.size a
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  inb_S4096x1024_S1024x1024_3072_0 : ∀ a, (![3072, 0] : Fin 2 → Nat) a + S1024x1024.size a ≤ S4096x1024.size a
  inb_S1x1024_S1x1024_0_0 : ∀ a, (![0, 0] : Fin 2 → Nat) a + S1x1024.size a ≤ S1x1024.size a
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S4096 : Shape := ⟨1, ![4096]⟩
abbrev S1024 : Shape := ⟨1, ![1024]⟩
abbrev S4096x4096 : Shape := ⟨2, ![4096, 4096]⟩
abbrev S1x4096 : Shape := ⟨2, ![1, 4096]⟩
abbrev S_ : Shape := ⟨0, ![]⟩
abbrev S1x1024 : Shape := ⟨2, ![1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.MlpSpec.lean ====
/-
  The function both programs compute, entry by entry, on the extended reals: a two-layer perceptron
  `y = relu(x · W1 + b1) · W2 + b2` with `x : [4096, 1024]`, `W1 : [1024, 4096]`, `W2 : [4096, 1024]`.

  Entry (r, c) of the result is `(Σ_h hidden r h · W2[h, c]) + b2[c]`, where the rectified hidden unit is
  `hidden r h = max (Σ_k x[r, k] · W1[k, h] + b1[h]) 0`.

  One program takes the sum over the 4096 hidden units whole; the other takes it in four consecutive runs of 1024
  units, added one after the other onto a zero.  Addition on the extended reals is commutative and associative
  (also at the infinities), so the two agree with no finiteness assumption: `sum_four_runs`.
-/
import Idealize.ShloMosaic.PureOps.Ideal
import Idealize.ShloMosaic.PureOps.Ideal.Laws
import Idealize.ShloMosaic.Lib.ValueIdx
import proofs.«153341_j7413113553682_2_alg».proof.Proof.LibSumRuns

noncomputable section

open scoped BigOperators

namespace Cert.Mlp

open Idealize.ShloMosaic Idealize.ShloMosaic.ValueIdx

/-- The rectified hidden unit `h` of batch row `r`: `max (Σ_k x[r, k] · W1[k, h] + b1[h]) 0`. The zero is kept as the
    word both programs spell it with; it is never evaluated. -/
def hidden (x : (⟨2, ![4096, 1024]⟩ : Shape).Idx → EReal) (w1 : (⟨2, ![1024, 4096]⟩ : Shape).Idx → EReal)
    (b1 : (⟨1, ![4096]⟩ : Shape).Idx → EReal) (r : Fin 4096) (h : Fin 4096) : EReal :=
  max ((∑ k : Fin 1024, x (ix2 r k) * w1 (ix2 k h)) + b1 (ix1 h)) (Ideal.ofBits .f32 0x00000000#32)

/-- One term of the second contraction: hidden unit `h` of row `r` times `W2[h, c]`. -/
def term (x : (⟨2, ![4096, 1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal)
    (r : Fin 4096) (c : Fin 1024) (h : Fin 4096) : EReal :=
  hidden x w1 b1 r h * w2 (ix2 h c)

/-- Entry (r, c) of the result: `(Σ_h hidden r h · W2[h, c]) + b2[c]`. -/
def outAt (x : (⟨2, ![4096, 1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal)
    (b2 : (⟨1, ![1024]⟩ : Shape).Idx → EReal) (r : Fin 4096) (c : Fin 1024) : EReal :=
  (∑ h : Fin 4096, term x w1 b1 w2 r c h) + b2 (ix1 c)

/-- The whole result array. -/
def out (x : (⟨2, ![4096, 1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal)
    (b2 : (⟨1, ![1024]⟩ : Shape).Idx → EReal) : (⟨2, ![4096, 1024]⟩ : Shape).Idx → EReal :=
  fun i => outAt x w1 b1 w2 b2 (i 0) (i 1)

theorem out_ix2 (x : (⟨2, ![4096, 1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal)
    (b2 : (⟨1, ![1024]⟩ : Shape).Idx → EReal) (r : Fin 4096) (c : Fin 1024) :
    out x w1 b1 w2 b2 (ix2 r c) = outAt x w1 b1 w2 b2 r c := rfl

/-- Place `j` of the run that starts at `o` is below 4096 when the run of 1024 fits. -/
theorem place_lt (o : Nat) (ho : o + 1024 ≤ 4096) (j : Fin 1024) : o + j.val < 4096 := by
  have := j.isLt; omega

/-- A sum of 4096 terms is the sum of its four consecutive runs of 1024 terms, added one after the other onto the
    zero word: only commutativity and associativity of addition, so it holds at the infinities too. -/
theorem sum_four_runs (g : Fin 4096 → EReal) :
    (((Ideal.ofBits .f32 0x00000000#32 + ∑ j : Fin 1024, g ⟨0 + j.val, place_lt 0 (by omega) j⟩)
        + ∑ j : Fin 1024, g ⟨1024 + j.val, place_lt 1024 (by omega) j⟩)
        + ∑ j : Fin 1024, g ⟨2048 + j.val, place_lt 2048 (by omega) j⟩)
        + ∑ j : Fin 1024, g ⟨3072 + j.val, place_lt 3072 (by omega) j⟩
      = ∑ h : Fin 4096, g h := by
  rw [Ideal.ofBits_zero_f32, zero_add]
  have hruns : ∑ h : Fin 4096, g h = ∑ s : Fin 4, ∑ r : Fin 1024, g ⟨s.val * 1024 + r.val, Cert.Lib.SumRuns.run_lt s r⟩ :=
    Cert.Lib.SumRuns.sum_runs 4 1024 g
  rw [hruns, Fin.sum_univ_four]
  refine congrArg₂ (· + ·) (congrArg₂ (· + ·) (congrArg₂ (· + ·) ?_ ?_) ?_) ?_ <;>
    exact Finset.sum_congr rfl fun r _ => congrArg g (Fin.ext (by simp))

end Cert.Mlp

end
-- ==== Proof.ReferenceValue.lean ====
/-
  The reference program's result, read entry by entry: it is the perceptron `Cert.Mlp.out` of its five arguments.

  The reference contracts `x · W1` over the 1024 inputs, adds `b1` broadcast along the rows, takes the maximum
  with the zero splat, contracts the result with `W2` over all 4096 hidden units at once, and adds `b2` broadcast
  along the rows.  Each stage read at an index is one line (the generated read-at-an-index lemmas); what is left is
  to identify the stages' index functions with indices built from coordinates.
-/
import proofs.«153341_j7413113553682_2_alg».proof.Proof.Gen.ReferenceIdeal.Read
import proofs.«153341_j7413113553682_2_alg».proof.Proof.MlpSpec

noncomputable section

open scoped BigOperators

namespace Cert.ReferenceIdeal.RefValue

open Cert.ReferenceIdeal Cert.ReferenceIdeal.Read Idealize.ShloMosaic Idealize.ShloMosaic.ValueIdx

/-- The second product's left index at output entry (r, c) and hidden unit `h` is (r, h). -/
theorem lidx5 (r : Fin 4096) (c : Fin 1024) (h : Fin 4096) : lidx_main_v5 (ix2 r c) h = ix2 r h :=
  funext fun a => Fin.ext (by match a with | ⟨0, _⟩ => rfl | ⟨1, _⟩ => rfl)

/-- Its right index is (h, c). -/
theorem ridx5 (r : Fin 4096) (c : Fin 1024) (h : Fin 4096) : ridx_main_v5 (ix2 r c) h = ix2 h c :=
  funext fun a => Fin.ext (by match a with | ⟨0, _⟩ => rfl | ⟨1, _⟩ => rfl)

/-- The first product's left index at entry (r, h) and input `k` is (r, k). -/
theorem lidx0 (r : Fin 4096) (h : Fin 4096) (k : Fin 1024) : lidx_main_v0 (ix2 r h) k = ix2 r k :=
  funext fun a => Fin.ext (by match a with | ⟨0, _⟩ => rfl | ⟨1, _⟩ => rfl)

/-- Its right index is (k, h). -/
theorem ridx0 (r : Fin 4096) (h : Fin 4096) (k : Fin 1024) : ridx_main_v0 (ix2 r h) k = ix2 k h :=
  funext fun a => Fin.ext (by match a with | ⟨0, _⟩ => rfl | ⟨1, _⟩ => rfl)

/-- The first bias, broadcast to a row and then along the rows, read at (r, h) is `b1[h]`. -/
theorem idx_b1 (r : Fin 4096) (h : Fin 4096) : idx_main_v1 (idx_main_v2 (ix2 r h)) = ix1 h :=
  funext fun a => Fin.ext (by match a with | ⟨0, _⟩ => rfl)

/-- The second bias likewise, read at (r, c), is `b2[c]`. -/
theorem idx_b2 (r : Fin 4096) (c : Fin 1024) : idx_main_v6 (idx_main_v7 (ix2 r c)) = ix1 c :=
  funext fun a => Fin.ext (by match a with | ⟨0, _⟩ => rfl)

/-- The rectified hidden layer of the reference at (r, h) is `Cert.Mlp.hidden`. -/
theorem hidden_eq (x0 : (⟨S4096x1024, .f32⟩ : BufTy).Contents (Elt Ideal)) (x1 : (⟨S1024x4096, .f32⟩ : BufTy).Contents (Elt Ideal))
    (x2 : (⟨S4096, .f32⟩ : BufTy).Contents (Elt Ideal)) (r : Fin 4096) (h : Fin 4096) :
    val_main_v4 (F := Ideal) x0 x1 x2 (ix2 r h) = Cert.Mlp.hidden x0 x1 x2 r h := by
  rw [val_main_v4_apply, val_main_v3_apply, val_main_v0_apply, val_main_v2_apply, val_main_v1_apply,
    val_main_call0_v0_apply, val_main_call0_cst_apply, idx_b1]
  simp only [lidx0, ridx0]
  rfl

/-- The reference's result array is the perceptron of its arguments. -/
theorem result_eq (x0 : (⟨S4096x1024, .f32⟩ : BufTy).Contents (Elt Ideal)) (x1 : (⟨S1024x4096, .f32⟩ : BufTy).Contents (Elt Ideal))
    (x2 : (⟨S4096, .f32⟩ : BufTy).Contents (Elt Ideal)) (x3 : (⟨S4096x1024, .f32⟩ : BufTy).Contents (Elt Ideal))
    (x4 : (⟨S1024, .f32⟩ : BufTy).Contents (Elt Ideal)) :
    val_main_v8 (F := Ideal) x0 x1 x2 x3 x4 = Cert.Mlp.out x0 x1 x2 x3 x4 := by
  funext i
  obtain ⟨r, c, rfl⟩ : ∃ (r : Fin 4096) (c : Fin 1024), i = ix2 r c := ⟨i 0, i 1, eq_ix2 i⟩
  rw [Cert.Mlp.out_ix2, val_main_v8_apply, val_main_v5_apply, val_main_v7_apply, val_main_v6_apply, idx_b2]
  simp only [lidx5, ridx5, hidden_eq]
  rfl

end Cert.ReferenceIdeal.RefValue

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.KernelBody.lean ====
/-
  What the kernel's body leaves in its output block, read entry by entry.

  At one grid point the body holds a block of 512 rows of `x`, and the whole of `W1`, `b1` (as a row), `W2` and
  `b2` (as a row).  It walks the 4096 hidden units in four runs of 1024: for run `s` it multiplies the rows by the
  1024 columns of `W1` of that run, adds that stretch of `b1`, rectifies, multiplies by the 1024 rows of `W2` of
  that run, and adds the product onto an accumulator that starts at zero; at the end it adds `b2`.

  Entry (p, c) of the block is therefore `(Σ_h max (Σ_k x[p, k] · W1[k, h] + b1[h]) 0 · W2[h, c]) + b2[c]`
  with the sum over `h` taken run by run — which is the sum over all 4096 units (`Cert.Mlp.sum_four_runs`).
-/
import proofs.«153341_j7413113553682_2_alg».proof.Proof.Gen.KernelIdeal.Frame
import proofs.«153341_j7413113553682_2_alg».proof.Proof.LibSplitContraction
import proofs.«153341_j7413113553682_2_alg».proof.Proof.MlpSpec
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The body's eight products share one dimension record -/

/-- [512, 1024] × [1024, 1024], contracted over the middle axis. -/
abbrev prod : DotDims S512x1024 S1024x1024 S512x1024 := dot_S512x1024_S1024x1024_S512x1024_1_0_0_1_n_n

theorem prod_l0 (j : S512x1024.Idx) (q : prod.contr.Idx) : (prod.lhsIdx j q 0).val = (j 0).val := by
  unfold DotDims.lhsIdx
  rw [dif_neg (show ¬(0 : Fin S512x1024.rank) ∈ prod.lhsBatch by decide), dif_pos (show (0 : Fin S512x1024.rank) ∈ prod.lhsNonContracting by decide)]
  rfl

theorem prod_l1 (j : S512x1024.Idx) (q : prod.contr.Idx) : (prod.lhsIdx j q 1).val = (q ⟨0, by decide⟩).val :=
  prod.lhsIdx_val_of_single rfl j q

theorem prod_r0 (j : S512x1024.Idx) (q : prod.contr.Idx) : (prod.rhsIdx j q 0).val = (q ⟨0, by decide⟩).val :=
  prod.rhsIdx_val_of_single rfl j q

theorem prod_r1 (j : S512x1024.Idx) (q : prod.contr.Idx) : (prod.rhsIdx j q 1).val = (j 1).val := by
  unfold DotDims.rhsIdx
  rw [dif_neg (show ¬(1 : Fin S1024x1024.rank) ∈ prod.rhsBatch by decide), dif_pos (show (1 : Fin S1024x1024.rank) ∈ prod.rhsNonContracting by decide)]
  rfl

/-- A product into the zero accumulator, at entry (p, c): the row of the left factor against the column of the right. -/
theorem product_apply {φ₁ φ₂ : FTy} (lhs : FVec Ideal S512x1024 φ₁) (rhs : FVec Ideal S1024x1024 φ₂) (p : Fin 512) (c : Fin 1024) :
    matmul prod none lhs rhs (constant (F := Ideal) S512x1024 .f32 0x00000000#32) (ix2 p c)
      = ∑ k : Fin 1024, lhs (ix2 p k) * rhs (ix2 k c) :=
  Cert.Lib.SplitContraction.matmul_zero_at prod rfl rfl prod_l0 prod_l1 prod_r0 prod_r1 none lhs rhs p c

/-! ## One run of 1024 hidden units, as the body spells it -/

section Spelling
variable {F : FTy → Type} [FloatOps F]

/-- The rectified hidden units of one run: the (narrowed) rows times the run's columns of `W1`, plus the run's stretch
    of `b1` along the rows, maximum with the zero splat, narrowed. -/
def hiddenRun (xt : FVec F S512x1024 .bf16) (w1 : Vec F S1024x1024 .bf16) (b1 : Vec F S1x1024 .f32) : FVec F S512x1024 .bf16 :=
  truncf .bf16 (maximumf (addf (matmul prod none xt (shapeCast S1024x1024 w1 shapeCasts_S1024x1024_S1024x1024) (constant S512x1024 .f32 0x00000000#32))
    (broadcastTo S512x1024 (shapeCast S1x1024 b1 shapeCasts_S1x1024_S1x1024) broadcasts_S1x1024_S512x1024))
    (broadcast S512x1024 (Scalar.ofBits .f32 0x00000000#32))) bitsLt_bf16_f32

/-- The run's contribution to the output block: its hidden units times the run's rows of `W2`. -/
def outRun (hd : FVec F S512x1024 .bf16) (w2 : Vec F S1024x1024 .bf16) : FVec F S512x1024 .f32 :=
  matmul prod none hd (shapeCast S1024x1024 w2 shapeCasts_S1024x1024_S1024x1024) (constant S512x1024 .f32 0x00000000#32)

theorem hz : (![0, 0] : Fin 2 → Nat) = fun _ => 0 := funext fun a => by fin_cases a <;> rfl

/-- The output block after the body: the four runs' contributions added in order onto the zero splat, then `b2` along
    the rows. -/
theorem body_eq (x0 : Vec F S512x1024 .f32) (x1 : Vec F S1024x4096 .bf16) (x2 : Vec F S1x4096 .f32) (x3 : Vec F S4096x1024 .bf16) (x4 : Vec F S1x1024 .f32) :
    out0_5 x0 x1 x2 x3 x4
      = addf (addf (addf (addf (addf (broadcast S512x1024 (Scalar.ofBits .f32 0x00000000#32))
          (outRun (hiddenRun (k0_pay2 (View.ld x0 r0_0)) (View.ld x1 r0_1) (View.ld x2 r0_2)) (View.ld x3 r0_3)))
          (outRun (hiddenRun (k0_pay2 (View.ld x0 r0_0)) (View.ld x1 r0_4) (View.ld x2 r0_5)) (View.ld x3 r0_6)))
          (outRun (hiddenRun (k0_pay2 (View.ld x0 r0_0)) (View.ld x1 r0_7) (View.ld x2 r0_8)) (View.ld x3 r0_9)))
          (outRun (hiddenRun (k0_pay2 (View.ld x0 r0_0)) (View.ld x1 r0_10) (View.ld x2 r0_11)) (View.ld x3 r0_12)))
          (broadcastTo S512x1024 (shapeCast S1x1024 (View.ld x4 r0_13 : Vec F S1x1024 .f32) shapeCasts_S1x1024_S1x1024) broadcasts_S1x1024_S512x1024) := by
  unfold out0_5
  rw [View.canon_unit_zero hz]
  rfl

end Spelling

/-! ## The runs read at an entry -/

theorem hiddenRun_apply (xt : FVec Ideal S512x1024 .bf16) (w1 : Vec Ideal S1024x1024 .bf16) (b1 : Vec Ideal S1x1024 .f32)
    (p : Fin 512) (j : Fin 1024) :
    hiddenRun xt w1 b1 (ix2 p j)
      = max ((∑ k : Fin 1024, xt (ix2 p k) * w1 (ix2 k j)) + b1 (ix2 (0 : Fin 1) j)) (Ideal.ofBits .f32 0x00000000#32) := by
  unfold hiddenRun
  rw [shapeCast_self, shapeCast_self]
  show max (matmul prod none xt w1 (constant (F := Ideal) S512x1024 .f32 0x00000000#32) (ix2 p j)
    + broadcastTo S512x1024 b1 broadcasts_S1x1024_S512x1024 (ix2 p j)) (Ideal.ofBits .f32 0x00000000#32) = _
  rw [product_apply, broadcastTo_1b_ab_apply]

theorem outRun_apply (hd : FVec Ideal S512x1024 .bf16) (w2 : Vec Ideal S1024x1024 .bf16) (p : Fin 512) (c : Fin 1024) :
    outRun hd w2 (ix2 p c) = ∑ j : Fin 1024, hd (ix2 p j) * w2 (ix2 j c) := by
  unfold outRun
  rw [shapeCast_self]
  exact product_apply hd w2 p c

/-! ## The body's loads read at an entry

The body reads `W1` and `b1` through windows of 1024 columns starting at column `o`, and `W2` through windows of
1024 rows starting at row `o`: entry `j` of such a window is entry `o + j` of the array. -/

/-- Columns `o … o + 1023` of `W1`. -/
theorem ld_w1 (x1 : Vec Ideal S1024x4096 .bf16) (o : Nat) (ho : o + 1024 ≤ 4096)
    (inb : ∀ a, (![0, o] : Fin 2 → Nat) a + S1024x1024.size a ≤ S1024x4096.size a) (k j : Fin 1024) :
    View.ld x1 (Rect.unit (s := S1024x4096) ![0, o] S1024x1024.size inb) (ix2 k j)
      = x1 (ix2 k ⟨o + j.val, Cert.Mlp.place_lt o ho j⟩) := by
  show x1 _ = x1 _
  refine congrArg x1 (funext fun a => Fin.ext ?_)
  match a with
  | ⟨0, _⟩ => show 0 + 1 * k.val = k.val; omega
  | ⟨1, _⟩ => show o + 1 * j.val = o + j.val; omega

/-- Columns `o … o + 1023` of the row `b1`. -/
theorem ld_b1 (x2 : Vec Ideal S1x4096 .f32) (o : Nat) (ho : o + 1024 ≤ 4096)
    (inb : ∀ a, (![0, o] : Fin 2 → Nat) a + S1x1024.size a ≤ S1x4096.size a) (j : Fin 1024) :
    View.ld x2 (Rect.unit (s := S1x4096) ![0, o] S1x1024.size inb) (ix2 (0 : Fin 1) j)
      = x2 (ix2 (0 : Fin 1) ⟨o + j.val, Cert.Mlp.place_lt o ho j⟩) := by
  show x2 _ = x2 _
  refine congrArg x2 (funext fun a => Fin.ext ?_)
  match a with
  | ⟨0, _⟩ => show 0 + 1 * 0 = 0; omega
  | ⟨1, _⟩ => show o + 1 * j.val = o + j.val; omega

/-- Rows `o … o + 1023` of `W2`. -/
theorem ld_w2 (x3 : Vec Ideal S4096x1024 .bf16) (o : Nat) (ho : o + 1024 ≤ 4096)
    (inb : ∀ a, (![o, 0] : Fin 2 → Nat) a + S1024x1024.size a ≤ S4096x1024.size a) (j c : Fin 1024) :
    View.ld x3 (Rect.unit (s := S4096x1024) ![o, 0] S1024x1024.size inb) (ix2 j c)
      = x3 (ix2 ⟨o + j.val, Cert.Mlp.place_lt o ho j⟩ c) := by
  show x3 _ = x3 _
  refine congrArg x3 (funext fun a => Fin.ext ?_)
  match a with
  | ⟨0, _⟩ => show o + 1 * j.val = o + j.val; omega
  | ⟨1, _⟩ => show 0 + 1 * c.val = c.val; omega

/-- The block of `x` is read whole, and narrowing is the identity on the extended reals. -/
theorem rows_apply (x0 : Vec Ideal S512x1024 .f32) (p : Fin 512) (k : Fin 1024) :
    k0_pay2 (View.ld x0 r0_0) (ix2 p k) = x0 (ix2 p k) := by
  rw [View.ld_unit_zero (S := S512x1024) hz]
  rfl

/-! ## The block at an entry -/

/-- One term of the block's second contraction, from the block's own operands: rectified hidden unit `h` of row `p`
    times `W2[h, c]`. -/
def term (x0 : Vec Ideal S512x1024 .f32) (x1 : Vec Ideal S1024x4096 .bf16) (x2 : Vec Ideal S1x4096 .f32)
    (x3 : Vec Ideal S4096x1024 .bf16) (p : Fin 512) (c : Fin 1024) (h : Fin 4096) : EReal :=
  max ((∑ k : Fin 1024, x0 (ix2 p k) * x1 (ix2 k h)) + x2 (ix2 (0 : Fin 1) h)) (Ideal.ofBits .f32 0x00000000#32) * x3 (ix2 h c)

/-- The run that starts at hidden unit `o` contributes the 1024 terms `o … o + 1023`. -/
theorem run_apply (o : Nat) (ho : o + 1024 ≤ 4096) (x0 : Vec Ideal S512x1024 .f32) (x1 : Vec Ideal S1024x4096 .bf16)
    (x2 : Vec Ideal S1x4096 .f32) (x3 : Vec Ideal S4096x1024 .bf16)
    (inb1 : ∀ a, (![0, o] : Fin 2 → Nat) a + S1024x1024.size a ≤ S1024x4096.size a)
    (inb2 : ∀ a, (![0, o] : Fin 2 → Nat) a + S1x1024.size a ≤ S1x4096.size a)
    (inb3 : ∀ a, (![o, 0] : Fin 2 → Nat) a + S1024x1024.size a ≤ S4096x1024.size a) (p : Fin 512) (c : Fin 1024) :
    outRun (hiddenRun (k0_pay2 (View.ld x0 r0_0)) (View.ld x1 (Rect.unit (s := S1024x4096) ![0, o] S1024x1024.size inb1))
        (View.ld x2 (Rect.unit (s := S1x4096) ![0, o] S1x1024.size inb2)))
        (View.ld x3 (Rect.unit (s := S4096x1024) ![o, 0] S1024x1024.size inb3)) (ix2 p c)
      = ∑ j : Fin 1024, term x0 x1 x2 x3 p c ⟨o + j.val, Cert.Mlp.place_lt o ho j⟩ := by
  rw [outRun_apply]
  refine Finset.sum_congr rfl fun j _ => ?_
  rw [hiddenRun_apply, ld_w2 x3 o ho inb3 j c, ld_b1 x2 o ho inb2 j]
  unfold term
  refine congrArg (fun s => max (s + _) _ * _) (Finset.sum_congr rfl fun k _ => ?_)
  rw [rows_apply, ld_w1 x1 o ho inb1 k j]

/-- Entry (p, c) of the output block: all 4096 terms, plus `b2[c]`. -/
theorem body_apply (x0 : Vec Ideal S512x1024 .f32) (x1 : Vec Ideal S1024x4096 .bf16) (x2 : Vec Ideal S1x4096 .f32)
    (x3 : Vec Ideal S4096x1024 .bf16) (x4 : Vec Ideal S1x1024 .f32) (p : Fin 512) (c : Fin 1024) :
    out0_5 x0 x1 x2 x3 x4 (ix2 p c) = (∑ h : Fin 4096, term x0 x1 x2 x3 p c h) + x4 (ix2 (0 : Fin 1) c) := by
  rw [body_eq]
  simp only [addf_apply]
  rw [run_apply 0 (by omega), run_apply 1024 (by omega), run_apply 2048 (by omega), run_apply 3072 (by omega),
    View.ld_unit_zero (S := S1x1024) hz, broadcastTo_1b_ab_apply]
  exact congrArg₂ (· + ·) (Cert.Mlp.sum_four_runs (term x0 x1 x2 x3 p c))
    (congrFun (shapeCast_self x4 shapeCasts_S1x1024_S1x1024) (ix2 (0 : Fin 1) c))

/-- So, when the block's operands are the rows `r` of `x` and the whole of `W1`, `b1`, `W2`, `b2`, entry (p, c) of
    the block is entry (r, c) of the perceptron. -/
theorem body_is_mlp (x0 : Vec Ideal S512x1024 .f32) (x1 : Vec Ideal S1024x4096 .bf16) (x2 : Vec Ideal S1x4096 .f32)
    (x3 : Vec Ideal S4096x1024 .bf16) (x4 : Vec Ideal S1x1024 .f32)
    (X : (⟨2, ![4096, 1024]⟩ : Shape).Idx → EReal) (W1 : (⟨2, ![1024, 4096]⟩ : Shape).Idx → EReal)
    (B1 : (⟨1, ![4096]⟩ : Shape).Idx → EReal) (W2 : (⟨2, ![4096, 1024]⟩ : Shape).Idx → EReal)
    (B2 : (⟨1, ![1024]⟩ : Shape).Idx → EReal) (p : Fin 512) (c : Fin 1024) (r : Fin 4096)
    (h0 : ∀ k : Fin 1024, x0 (ix2 p k) = X (ix2 r k))
    (h1 : ∀ (k : Fin 1024) (h : Fin 4096), x1 (ix2 k h) = W1 (ix2 k h))
    (h2 : ∀ h : Fin 4096, x2 (ix2 (0 : Fin 1) h) = B1 (ix1 h))
    (h3 : ∀ h : Fin 4096, x3 (ix2 h c) = W2 (ix2 h c))
    (h4 : x4 (ix2 (0 : Fin 1) c) = B2 (ix1 c)) :
    out0_5 x0 x1 x2 x3 x4 (ix2 p c) = Cert.Mlp.outAt X W1 B1 W2 B2 r c := by
  rw [body_apply, h4]
  unfold Cert.Mlp.outAt
  refine congrArg (· + B2 (ix1 c)) (Finset.sum_congr rfl fun h _ => ?_)
  unfold term Cert.Mlp.term Cert.Mlp.hidden
  rw [h2, h3]
  simp only [h0, h1]

end Cert.KernelIdeal.Body

end
-- ==== Proof.KernelValue.lean ====
/-
  The kernel's result array after its run: the perceptron `Cert.Mlp.out` of the five arguments.

  The grid has eight points; point `t` holds rows `512 t … 512 t + 511` of `x` and of the result, and the whole of
  the other four operands.  Before the region the program narrows `W1` and `W2` (the identity on the extended
  reals) and lays `b1` and `b2` out as rows.  So at point `t` the block's operands are rows of `x` and the whole
  weights and biases, entry (p, c) of the block the body leaves is entry (512 t + p, c) of the perceptron
  (`Body.body_is_mlp`), the eight blocks cover the 4096 rows, and the array ends holding the perceptron.
-/
import proofs.«153341_j7413113553682_2_alg».proof.Proof.Gen.KernelIdeal.Value
import proofs.«153341_j7413113553682_2_alg».proof.Proof.KernelBody
import Idealize.ShloMosaic.Lib.Pipeline.Value
import Idealize.ShloMosaic.Lib.ValueLayout
import Idealize.ShloMosaic.Lib.StableHlo.Run

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- What the result array ends holding: the perceptron of the argument arrays as launched. -/
def result (c : Dev nD) : Buf (Elt Ideal) ((c : Thread nD τ).loc main_v4) :=
  Cert.Mlp.out (m ((c : Thread nD τ).loc main_arg0)) (m ((c : Thread nD τ).loc main_arg1)) (m ((c : Thread nD τ).loc main_arg2))
    (m ((c : Thread nD τ).loc main_arg3)) (m ((c : Thread nD τ).loc main_arg4))

/-! ## The operands as the region finds them -/

/-- `W1` narrowed is `W1`. -/
theorem V_w1 (c : Dev nD) (i : S1024x4096.Idx) : V m c main_v0 i = m ((c : Thread nD τ).loc main_arg1) i := by
  have e : @Eq (S1024x4096.Idx → EReal) (V m c main_v0) (m ((c : Thread nD τ).loc main_arg1)) := by
    dsimp only [V, hostOps0]; after_results; rfl
  exact congrFun e i

/-- `W2` narrowed is `W2`. -/
theorem V_w2 (c : Dev nD) (i : S4096x1024.Idx) : V m c main_v1 i = m ((c : Thread nD τ).loc main_arg3) i := by
  have e : @Eq (S4096x1024.Idx → EReal) (V m c main_v1) (m ((c : Thread nD τ).loc main_arg3)) := by
    dsimp only [V, hostOps0]; after_results; rfl
  exact congrFun e i

/-- `b1` laid out as a row: entry (0, h) is `b1[h]`. -/
theorem V_b1 (c : Dev nD) (h : Fin 4096) :
    V m c main_v2 (ix2 (0 : Fin 1) h) = m ((c : Thread nD τ).loc main_arg2) (ix1 h) := by
  have e : (V m c main_v2 : S1x4096.Idx → EReal)
      = shapeCast S1x4096 (m ((c : Thread nD τ).loc main_arg2)) shapeCasts_S4096_S1x4096 := by
    dsimp only [V, hostOps0]; after_results; rfl
  exact (congrFun e _).trans (shapeCast_a_1a_apply _ _ (0 : Fin 1) h)

/-- `b2` laid out as a row: entry (0, c) is `b2[c]`. -/
theorem V_b2 (c : Dev nD) (q : Fin 1024) :
    V m c main_v3 (ix2 (0 : Fin 1) q) = m ((c : Thread nD τ).loc main_arg4) (ix1 q) := by
  have e : (V m c main_v3 : S1x1024.Idx → EReal)
      = shapeCast S1x1024 (m ((c : Thread nD τ).loc main_arg4)) shapeCasts_S1024_S1x1024 := by
    dsimp only [V, hostOps0]; after_results; rfl
  exact (congrFun e _).trans (shapeCast_a_1a_apply _ _ (0 : Fin 1) q)

/-! ## The windows' blocks -/

/-- The printed index maps over the eight grid points: the rows of `x` and of the result move with the point, the
    other four operands stay whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 8 := lt_of_lt_of_eq t.isLt N_0

/-- Row `p` of point `t`'s block is row `512 t + p` of the array. -/
theorem row_lt (t : Fin cfg0.N) (p : Fin 512) : t.val * 512 + p.val < 4096 := by
  have := point_lt t; have := p.isLt; omega

/-- The block of `x` at point `t`: rows `512 t …`. -/
theorem blk_x (c : Dev nD) (t : Fin cfg0.N) (p : Fin 512) (k : Fin 1024) :
    iblk m c 0 t (ix2 p k) = m ((c : Thread nD τ).loc main_arg0) (ix2 ⟨t.val * 512 + p.val, row_lt t p⟩ k) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

/-- The block of `W1` is all of it. -/
theorem blk_w1 (c : Dev nD) (t : Fin cfg0.N) (k : Fin 1024) (h : Fin 4096) :
    iblk m c 1 t (ix2 k h) = m ((c : Thread nD τ).loc main_arg1) (ix2 k h) := by
  obtain ⟨-, -, e0, e1, -⟩ := idx_facts t
  show V m c main_v0 (((cfg0.win 1).blk t).view.emb (ix2 k h)) = _
  rw [V_w1]
  refine congrArg (m ((c : Thread nD τ).loc main_arg1)) (funext fun a => Fin.ext ?_)
  match a with
  | ⟨0, _⟩ => show win0_1.index t (0 : Fin 2) * 1024 + 1 * k.val = k.val; omega
  | ⟨1, _⟩ => show win0_1.index t (1 : Fin 2) * 4096 + 1 * h.val = h.val; omega

/-- The block of the row `b1` is all of it. -/
theorem blk_b1 (c : Dev nD) (t : Fin cfg0.N) (h : Fin 4096) :
    iblk m c 2 t (ix2 (0 : Fin 1) h) = m ((c : Thread nD τ).loc main_arg2) (ix1 h) := by
  obtain ⟨-, -, -, -, e0, e1, -⟩ := idx_facts t
  show V m c main_v2 (((cfg0.win 2).blk t).view.emb (ix2 (0 : Fin 1) h)) = _
  have hi : ((cfg0.win 2).blk t).view.emb (ix2 (0 : Fin 1) h) = ix2 (0 : Fin 1) h := by
    funext a; apply Fin.ext
    match a with
    | ⟨0, _⟩ => show win0_2.index t (0 : Fin 2) * 1 + 1 * 0 = 0; omega
    | ⟨1, _⟩ => show win0_2.index t (1 : Fin 2) * 4096 + 1 * h.val = h.val; omega
  rw [hi, V_b1]

/-- The block of `W2` is all of it. -/
theorem blk_w2 (c : Dev nD) (t : Fin cfg0.N) (h : Fin 4096) (q : Fin 1024) :
    iblk m c 3 t (ix2 h q) = m ((c : Thread nD τ).loc main_arg3) (ix2 h q) := by
  obtain ⟨-, -, -, -, -, -, e0, e1, -⟩ := idx_facts t
  show V m c main_v1 (((cfg0.win 3).blk t).view.emb (ix2 h q)) = _
  rw [V_w2]
  refine congrArg (m ((c : Thread nD τ).loc main_arg3)) (funext fun a => Fin.ext ?_)
  match a with
  | ⟨0, _⟩ => show win0_3.index t (0 : Fin 2) * 4096 + 1 * h.val = h.val; omega
  | ⟨1, _⟩ => show win0_3.index t (1 : Fin 2) * 1024 + 1 * q.val = q.val; omega

/-- The block of the row `b2` is all of it. -/
theorem blk_b2 (c : Dev nD) (t : Fin cfg0.N) (q : Fin 1024) :
    iblk m c 4 t (ix2 (0 : Fin 1) q) = m ((c : Thread nD τ).loc main_arg4) (ix1 q) := by
  obtain ⟨-, -, -, -, -, -, -, -, e0, e1, -⟩ := idx_facts t
  show V m c main_v3 (((cfg0.win 4).blk t).view.emb (ix2 (0 : Fin 1) q)) = _
  have hi : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 1024 + 1 * q.val = q.val; omega
  rw [hi, V_b2]

/-- Entry (p, q) of the result's block at point `t` is entry (512 t + p, q) of the array. -/
theorem blk_out (t : Fin cfg0.N) (p : Fin 512) (q : Fin 1024) :
    ((cfg0.win 5).blk t).view.emb (ix2 p q) = ix2 (⟨t.val * 512 + p.val, row_lt t p⟩ : Fin 4096) q := by
  obtain ⟨-, -, -, -, -, -, -, -, -, -, e0, e1⟩ := idx_facts t
  funext a; apply Fin.ext
  match a with
  | ⟨0, _⟩ => show win0_5.index t (0 : Fin 2) * 512 + 1 * p.val = t.val * 512 + p.val; omega
  | ⟨1, _⟩ => show win0_5.index t (1 : Fin 2) * 1024 + 1 * q.val = q.val; omega

/-! ## From the blocks to the array -/

/-- What point `t` writes back is block `t` of the perceptron. -/
theorem flushed_eq (c : Dev nD) (t : Fin cfg0.N) :
    (dats m 0 c).flushed 5 t = ((cfg0.win 5).blk t).view.read (Elt Ideal) (result m c) := by
  rw [Value.flushed5]
  funext y
  obtain ⟨p, q, rfl⟩ : ∃ (p : Fin 512) (q : Fin 1024), y = ix2 p q := ⟨y 0, y 1, eq_ix2 y⟩
  show out0_5 (iblk m c 0 t) (iblk m c 1 t) (iblk m c 2 t) (iblk m c 3 t) (iblk m c 4 t) (ix2 p q)
    = result m c (((cfg0.win 5).blk t).view.emb (ix2 p q))
  rw [blk_out t p q]
  exact Body.body_is_mlp (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) p q ⟨t.val * 512 + p.val, row_lt t p⟩
    (fun k => blk_x m c t p k) (fun k h => blk_w1 m c t k h) (fun h => blk_b1 m c t h) (fun h => blk_w2 m c t h q)
    (blk_b2 m c t q)

/-- An index of the array is in point `t`'s block iff each coordinate is in the block's range on its axis. -/
theorem mem_blk (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4).slice (win0_5.rect t)).set ↔ _
  rw [View.set_slice_whole, Rect.mem_set_unit]
  exact Iff.rfl

/-- Every row of the array is in the block of the point `row / 512`. -/
theorem cover (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  let t : Fin cfg0.N := ⟨(i 0).val / 512, lt_of_lt_of_eq (by omega) N_0.symm⟩
  obtain ⟨-, -, -, -, -, -, -, -, -, -, e0, e1⟩ := idx_facts t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The result array after the run is the perceptron. -/
theorem final (c : Dev nD) : (dats m 0 c).arrAt 5 cfg0.N = result m c :=
  (dats m 0 c).arrAt_eq_of_cover 5 (result m c) (fun t _ => flushed_eq m c t) cover

/-- The kernel's run: it terminates with the result array at the perceptron of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.BlockValue

end
-- ==== Proof.lean ====
/-
  The kernel and its reference compute the same two-layer perceptron on the extended reals.

  Both programs take `x : [4096, 1024]`, `W1 : [1024, 4096]`, `b1 : [4096]`, `W2 : [4096, 1024]`, `b2 : [1024]` and
  return `y = relu(x · W1 + b1) · W2 + b2 : [4096, 1024]`; entry (r, c) is
  `(Σ_h max (Σ_k x[r, k] · W1[k, h] + b1[h]) 0 · W2[h, c]) + b2[c]` (`Cert.Mlp.out`, Proof/MlpSpec.lean).

  * The reference contracts over all 4096 hidden units at once (Proof/ReferenceValue.lean).
  * The kernel works on blocks of 512 rows; within a block it takes the hidden units in four runs of 1024 and adds
    the four partial products onto a zero accumulator (Proof/KernelBody.lean), and its eight blocks tile the result
    (Proof/KernelValue.lean).  Narrowing the operands to a shorter float format is the identity on the extended reals.

  The two sums over the hidden units agree because addition on the extended reals is commutative and associative,
  at the infinities too: no input needs to be finite for the two results to be equal, and the precondition is not used.
  The idealized kernel is the kernel's own text read on the extended reals (no rewrite was applied), so that claim is
  trivial; the three programs terminate without fault and leave their arguments unchanged by their generated frames
  and the reference's generated run.
-/
import proofs.«153341_j7413113553682_2_alg».proof.Defs
import proofs.«153341_j7413113553682_2_alg».proof.Proof.Gen.Kernel
import proofs.«153341_j7413113553682_2_alg».proof.Proof.Gen.Kernel.Skeleton
import proofs.«153341_j7413113553682_2_alg».proof.Proof.Gen.Kernel.Launch
import proofs.«153341_j7413113553682_2_alg».proof.Proof.Gen.Kernel.Points
import proofs.«153341_j7413113553682_2_alg».proof.Proof.Gen.Kernel.Frame
import proofs.«153341_j7413113553682_2_alg».proof.Proof.Gen.KernelIdeal
import proofs.«153341_j7413113553682_2_alg».proof.Proof.Gen.KernelIdeal.Skeleton
import proofs.«153341_j7413113553682_2_alg».proof.Proof.Gen.KernelIdeal.Launch
import proofs.«153341_j7413113553682_2_alg».proof.Proof.Gen.KernelIdeal.Points
import proofs.«153341_j7413113553682_2_alg».proof.Proof.Gen.KernelIdeal.Frame
import proofs.«153341_j7413113553682_2_alg».proof.Proof.Gen.ReferenceIdeal
import proofs.«153341_j7413113553682_2_alg».proof.Proof.Gen.Pre_finite_inputs
import proofs.«153341_j7413113553682_2_alg».proof.Proof.Gen.KernelIdeal.Value
import proofs.«153341_j7413113553682_2_alg».proof.Proof.Gen.ReferenceIdeal.Run
import proofs.«153341_j7413113553682_2_alg».proof.Proof.Gen.ReferenceIdeal.Read
import proofs.«153341_j7413113553682_2_alg».proof.Proof.ReferenceValue
import proofs.«153341_j7413113553682_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed terminates without fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals. -/
theorem preserves : Cert.preserves_Kernel_KernelIdeal := trivial

/-- From memories that agree on the five arguments both programs end with the result array at the perceptron of
    those arguments. -/
theorem algebraic : Cert.algebraic_KernelIdeal_ReferenceIdeal := by
  intro m ρ m' ρ' _ hagree
  refine ⟨fun c => Cert.KernelIdeal.BlockValue.result m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
